-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048x64 : Shape := ⟨3, ![512, 2048, 64]⟩
abbrev S_ : Shape := ⟨0, ![]⟩

class Facts : Prop where
  bcast_S_S512x2048x64 : S_.BroadcastsInDim S512x2048x64 (![] : Fin 0 → Fin S512x2048x64.rank)
  reducesTo_S512x2048x64_S_d0_1_2 : S512x2048x64.ReducesTo [0, 1, 2] S_
  h_S_ : 0 < S_.numel

variable [Facts]

def fn {F : FTy → Type} [FloatOps F] (main_arg0 : FVec F S512x2048x64 .f32) : IVec S_ 1 :=
  let main_v0 : FVec F S512x2048x64 .f32 := Host.absf main_arg0
  let main_cst : FVec F S_ .f32 := constant S_ .f32 0x7F800000#32
  let main_v1 : FVec F S512x2048x64 .f32 := broadcastInDim S512x2048x64 ![] bcast_S_S512x2048x64 main_cst
  let main_v2 : IVec S512x2048x64 1 := cmpf .olt main_v0 main_v1
  let main_c : IVec S_ 1 := constantI S_ 1 1#1
  let main_v3 : IVec S_ 1 := (fun x v => Host.reduce IntOp.andi x v reducesTo_S512x2048x64_S_d0_1_2 h_S_) main_v2 main_c
  main_v3
-- ==== Kernel.lean ====
abbrev S512x2048x64 : Shape := ⟨3, ![512, 2048, 64]⟩
abbrev S512x2048x2 : Shape := ⟨3, ![512, 2048, 2]⟩
abbrev S512x2048x1 : Shape := ⟨3, ![512, 2048, 1]⟩
abbrev S64x128x64 : Shape := ⟨3, ![64, 128, 64]⟩
abbrev S64x128x2 : Shape := ⟨3, ![64, 128, 2]⟩
abbrev S64x128x1 : Shape := ⟨3, ![64, 128, 1]⟩

abbrev nBuf : Space → Nat
  | .hbm => 3
  | .vmem => 6
  | .smem => 0
  | _ => 0

abbrev bufTy : (tb : Table) → Fin (tcTables nBuf tb) → BufTy
  | .hbm, ⟨0, _⟩ => ⟨S512x2048x64, .f32⟩
  | .hbm, ⟨1, _⟩ => ⟨S512x2048x2, .f32⟩
  | .hbm, ⟨2, _⟩ => ⟨S512x2048x1, .f32⟩
  | .local _ .vmem, ⟨0, _⟩ => ⟨S64x128x64, .f32⟩
  | .local _ .vmem, ⟨1, _⟩ => ⟨S64x128x64, .f32⟩
  | .local _ .vmem, ⟨2, _⟩ => ⟨S64x128x2, .f32⟩
  | .local _ .vmem, ⟨3, _⟩ => ⟨S64x128x2, .f32⟩
  | .local _ .vmem, ⟨4, _⟩ => ⟨S64x128x1, .f32⟩
  | .local _ .vmem, ⟨5, _⟩ => ⟨S64x128x1, .f32⟩
  | _, _ => ⟨S512x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S64x128x64_S64x128x1_0_0_0 : ∀ a, (![0, 0, 0] : Fin 3 → Nat) a + S64x128x1.size a ≤ S64x128x64.size a
  h_S64x128x1 : 0 < S64x128x1.numel
  inb_S64x128x64_S64x128x1_0_0_1 : ∀ a, (![0, 0, 1] : Fin 3 → Nat) a + S64x128x1.size a ≤ S64x128x64.size a
  inb_S64x128x64_S64x128x1_0_0_11 : ∀ a, (![0, 0, 11] : Fin 3 → Nat) a + S64x128x1.size a ≤ S64x128x64.size a
  inb_S64x128x64_S64x128x1_0_0_12 : ∀ a, (![0, 0, 12] : Fin 3 → Nat) a + S64x128x1.size a ≤ S64x128x64.size a
  inb_S64x128x64_S64x128x1_0_0_13 : ∀ a, (![0, 0, 13] : Fin 3 → Nat) a + S64x128x1.size a ≤ S64x128x64.size a
  concatenates_S64x128x1_S64x128x1_S64x128x2_d2 : Shape.Concatenates [S64x128x1, S64x128x1] S64x128x2 2
  inb_S64x128x2_S64x128x2_0_0_0 : ∀ a, (![0, 0, 0] : Fin 3 → Nat) a + S64x128x2.size a ≤ S64x128x2.size a
  h_S64x128x2 : 0 < S64x128x2.numel
  inb_S64x128x1_S64x128x1_0_0_0 : ∀ a, (![0, 0, 0] : Fin 3 → Nat) a + S64x128x1.size a ≤ S64x128x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S512x2048x64.size a
  hwx0_0 : ∀ i : grid0.Coords, EltTy.bits .f32 = 32 ∨ (Rect.block (s := S512x2048x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x2.size a ≤ S512x2048x2.size a
  hwx0_1 : ∀ i : grid0.Coords, EltTy.bits .f32 = 32 ∨ (Rect.block (s := S512x2048x2) S64x128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x1.size a ≤ S512x2048x1.size a
  hwx0_2 : ∀ i : grid0.Coords, EltTy.bits .f32 = 32 ∨ (Rect.block (s := S512x2048x1) S64x128x1.size (cc0_transform_2 i) (hinb0_2 i)).WholeWords (EltTy.packing .f32)

variable [Facts₀]

abbrev win0_0 : Pipeline.Window sig grid0 :=
  Pipeline.Window.ofSpec (Memref.whole main_arg0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64x128x2.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S64x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x2048x64 : Shape := ⟨3, ![512, 2048, 64]⟩
abbrev S512x2048x1 : Shape := ⟨3, ![512, 2048, 1]⟩
abbrev S_ : Shape := ⟨0, ![]⟩
abbrev S512x2048x2 : Shape := ⟨3, ![512, 2048, 2]⟩

abbrev nBuf : Space → Nat
  | .hbm => 35
  | .vmem => 0
  | .smem => 0
  | _ => 0

abbrev bufTy : (tb : Table) → Fin (tcTables nBuf tb) → BufTy
  | .hbm, ⟨0, _⟩ => ⟨S512x2048x64, .f32⟩
  | .hbm, ⟨1, _⟩ => ⟨S512x2048x1, .f32⟩
  | .hbm, ⟨2, _⟩ => ⟨S512x2048x1, .f32⟩
  | .hbm, ⟨3, _⟩ => ⟨S512x2048x1, .f32⟩
  | .hbm, ⟨4, _⟩ => ⟨S512x2048x1, .f32⟩
  | .hbm, ⟨5, _⟩ => ⟨S512x2048x1, .f32⟩
  | .hbm, ⟨6, _⟩ => ⟨S_, .f32⟩
  | .hbm, ⟨7, _⟩ => ⟨S512x2048x1, .f32⟩
  | .hbm, ⟨8, _⟩ => ⟨S_, .f32⟩
  | .hbm, ⟨9, _⟩ => ⟨S512x2048x1, .f32⟩
  | .hbm, ⟨10, _⟩ => ⟨S512x2048x1, .f32⟩
  | .hbm, ⟨11, _⟩ => ⟨S_, .f32⟩
  | .hbm, ⟨12, _⟩ => ⟨S512x2048x1, .f32⟩
  | .hbm, ⟨13, _⟩ => ⟨S512x2048x1, .f32⟩
  | .hbm, ⟨14, _⟩ => ⟨S512x2048x1, .f32⟩
  | .hbm, ⟨15, _⟩ => ⟨S512x2048x1, .f32⟩
  | .hbm, ⟨16, _⟩ => ⟨S512x2048x1, .f32⟩
  | .hbm, ⟨17, _⟩ => ⟨S_, .f32⟩
  | .hbm, ⟨18, _⟩ => ⟨S512x2048x1, .f32⟩
  | .hbm, ⟨19, _⟩ => ⟨S512x2048x1, .f32⟩
  | .hbm, ⟨20, _⟩ => ⟨S512x2048x1, .f32⟩
  | .hbm, ⟨21, _⟩ => ⟨S512x2048x1, .f32⟩
  | .hbm, ⟨22, _⟩ => ⟨S512x2048x1, .f32⟩
  | .hbm, ⟨23, _⟩ => ⟨S_, .f32⟩
  | .hbm, ⟨24, _⟩ => ⟨S512x2048x1, .f32⟩
  | .hbm, ⟨25, _⟩ => ⟨S512x2048x1, .f32⟩
  | .hbm, ⟨26, _⟩ => ⟨S512x2048x1, .f32⟩
  | .hbm, ⟨27, _⟩ => ⟨S512x2048x1, .f32⟩
  | .hbm, ⟨28, _⟩ => ⟨S512x2048x1, .f32⟩
  | .hbm, ⟨29, _⟩ => ⟨S_, .f32⟩
  | .hbm, ⟨30, _⟩ => ⟨S512x2048x1, .f32⟩
  | .hbm, ⟨31, _⟩ => ⟨S512x2048x1, .f32⟩
  | .hbm, ⟨32, _⟩ => ⟨S512x2048x1, .f32⟩
  | .hbm, ⟨33, _⟩ => ⟨S512x2048x1, .f32⟩
  | .hbm, ⟨34, _⟩ => ⟨S512x2048x2, .f32⟩
  | _, _ => ⟨S512x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S512x2048x64_S512x2048x1_0_0_0 : S512x2048x64.Slices ![0, 0, 0] S512x2048x1
  slices_S512x2048x64_S512x2048x1_0_0_1 : S512x2048x64.Slices ![0, 0, 1] S512x2048x1
  slices_S512x2048x64_S512x2048x1_0_0_11 : S512x2048x64.Slices ![0, 0, 11] S512x2048x1
  slices_S512x2048x64_S512x2048x1_0_0_12 : S512x2048x64.Slices ![0, 0, 12] S512x2048x1
  slices_S512x2048x64_S512x2048x1_0_0_13 : S512x2048x64.Slices ![0, 0, 13] S512x2048x1
  bcast_S_S512x2048x1 : S_.BroadcastsInDim S512x2048x1 (![] : Fin 0 → Fin S512x2048x1.rank)
  concatenates_S512x2048x1_S512x2048x1_S512x2048x2_d2 : Shape.Concatenates [S512x2048x1, S512x2048x1] S512x2048x2 2

variable [Facts₀]

class Facts : Prop extends Facts₀ where

variable [Facts]
-- ==== Proof.LibConcatCongr.lean ====
/-
  A congruence rule for a two-piece `concatenate`.

  `concatenate t a xs h` takes its pieces as a list of pairs (a shape, an array of that shape), and the proof `h`
  that the pieces' shapes join to `t` along axis `a` mentions that list. For two pieces: equal pieces give equal
  joins. Stated as a congruence rule, so that an equation between arrays can be used inside either piece.
-/
import Idealize.ShloMosaic.PureOps

namespace Cert.Lib

open Idealize.ShloMosaic

/-- Two pieces joined along an axis: equal pieces give equal joins. -/
theorem concatenate_pair_congr {α : Type} (t : Shape) (a : Fin t.rank) (s₁ s₂ : Shape)
    (x x' : s₁.Idx → α) (y y' : s₂.Idx → α) (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.Lib
-- ==== Proof.Spec.lean ====
/-
  The specification: what both programs compute, as functions of the input array, index by index.

  The input is an array of rows of 64 lanes. Of each row only five lanes are read: lane 0 (a sign), lane 1 (the top
  exponent bit `e10`), lane 11 (the low exponent bit `e0`), lanes 12 and 13 (the two top mantissa bits `m51`, `m50`).
  Two results per row are formed by chained linear multiplexers, `mux s a b = s * a + (1 - s) * b`:

      bit0 = mux e10 (mux e0 m50 m51) e0          bit1 = mux e10 (mux e0 m51 1) 0

  The first output array has two lanes per row, `[bit1, bit0]`; the second has one lane per row, the sign lane copied.

  Everything here is stated for any float instance `F`, over the instance's own `mulf`, `addf`, `subf` and its reading of
  the words of 1.0 and 0.0: both programs apply the same operations in the same order to the same five lanes, so no
  law of arithmetic — and no finiteness of the input — is needed to identify them. The row extents `A`, `B` are
  parameters, because the same function describes a whole array and one block of rows of it (`result_rows`,
  `sign_rows`: the function of a block of rows is the block of the function).
-/
import Idealize.ShloMosaic.PureOps
import Idealize.ShloMosaic.Lib.ValueIdx

noncomputable section

namespace Cert.Mod4

open Idealize.ShloMosaic Idealize.ShloMosaic.ValueIdx

variable {F : FTy → Type} [FloatOps F]

/-! ## One row -/

/-- The word of 1.0, read by the instance. -/
abbrev one : F .f32 := FloatOps.ofBits .f32 0x3F800000#32
/-- The word of 0.0, read by the instance. -/
abbrev zero : F .f32 := FloatOps.ofBits .f32 0x00000000#32

/-- The linear multiplexer: `a` where the selector is 1, `b` where it is 0, and the affine blend in between. -/
def mux (s a b : F .f32) : F .f32 := FloatOps.addf (FloatOps.mulf s a) (FloatOps.mulf (FloatOps.subf one s) b)

/-- The low result of a row: with `e10` set, `m50` or `m51` as `e0` selects; with `e10` clear, `e0` itself. -/
def bit0 (e10 e0 m51 m50 : F .f32) : F .f32 := mux e10 (mux e0 m50 m51) e0

/-- The high result of a row: with `e10` set, `m51` or 1 as `e0` selects; with `e10` clear, 0. -/
def bit1 (e10 e0 m51 : F .f32) : F .f32 := mux e10 (mux e0 m51 one) zero

/-! ## The arrays -/

/-- Lane `k` of the row that index `i` (of an array with the same rows and any number of lanes) lies in. -/
abbrev lane {A B n : Nat} (i : (⟨3, ![A, B, n]⟩ : Shape).Idx) (k : Fin 64) : (⟨3, ![A, B, 64]⟩ : Shape).Idx :=
  ix3 (n0 := A) (n1 := B) (n2 := 64) (i 0) (i 1) k

/-- The two-lane output: lane 0 of a row holds `bit1` of the row's lanes 1, 11, 12; lane 1 holds `bit0` of its lanes
    1, 11, 12, 13. -/
def result {A B : Nat} (x : (⟨3, ![A, B, 64]⟩ : Shape).Idx → F .f32) : (⟨3, ![A, B, 2]⟩ : Shape).Idx → F .f32 := fun i =>
  if (i 2).val = 0 then bit1 (x (lane i 1)) (x (lane i 11)) (x (lane i 12))
  else bit0 (x (lane i 1)) (x (lane i 11)) (x (lane i 12)) (x (lane i 13))

/-- The one-lane output: the row's lane 0. -/
def sign {A B : Nat} (x : (⟨3, ![A, B, 64]⟩ : Shape).Idx → F .f32) : (⟨3, ![A, B, 1]⟩ : Shape).Idx → F .f32 := fun i =>
  x (lane i 0)

/-! ## A block of rows

If `x'` is a block of rows of `x` — row `(p, q)` of `x'` is row `(r p, s q)` of `x` — then the outputs of `x'` are the
same blocks of rows of the outputs of `x`: each output element reads lanes of its own row only. -/

/-- The two-lane output of a block of rows is that block of rows of the two-lane output. -/
theorem result_rows {A B A' B' : Nat} (x : (⟨3, ![A, B, 64]⟩ : Shape).Idx → F .f32)
    (x' : (⟨3, ![A', B', 64]⟩ : Shape).Idx → F .f32) (r : Fin A' → Fin A) (s : Fin B' → Fin B)
    (hx : ∀ (p : Fin A') (q : Fin B') (k : Fin 64), x' (ix3 p q k) = x (ix3 (r p) (s q) k))
    (p : Fin A') (q : Fin B') (l : Fin 2) :
    result x' (ix3 p q l) = result x (ix3 (r p) (s q) l) := by
  unfold result
  show (if l.val = 0 then bit1 (x' (ix3 p q 1)) (x' (ix3 p q 11)) (x' (ix3 p q 12))
      else bit0 (x' (ix3 p q 1)) (x' (ix3 p q 11)) (x' (ix3 p q 12)) (x' (ix3 p q 13)))
    = (if l.val = 0 then bit1 (x (ix3 (r p) (s q) 1)) (x (ix3 (r p) (s q) 11)) (x (ix3 (r p) (s q) 12))
      else bit0 (x (ix3 (r p) (s q) 1)) (x (ix3 (r p) (s q) 11)) (x (ix3 (r p) (s q) 12)) (x (ix3 (r p) (s q) 13)))
  rw [hx p q 1, hx p q 11, hx p q 12, hx p q 13]

/-- The one-lane output of a block of rows is that block of rows of the one-lane output. -/
theorem sign_rows {A B A' B' : Nat} (x : (⟨3, ![A, B, 64]⟩ : Shape).Idx → F .f32)
    (x' : (⟨3, ![A', B', 64]⟩ : Shape).Idx → F .f32) (r : Fin A' → Fin A) (s : Fin B' → Fin B)
    (hx : ∀ (p : Fin A') (q : Fin B') (k : Fin 64), x' (ix3 p q k) = x (ix3 (r p) (s q) k))
    (p : Fin A') (q : Fin B') (l : Fin 1) :
    sign x' (ix3 p q l) = sign x (ix3 (r p) (s q) l) :=
  hx p q 0

end Cert.Mod4

end
-- ==== Proof.RefValue.lean ====
/-
  The reference's two results are the specification's two arrays.

  The reference takes five one-lane slices of the input (lanes 0, 1, 11, 12, 13 of every row), forms the two chained
  multiplexers on the four value slices with splat constants 1.0 and 0.0, and joins the two one-lane results along the
  lane axis. Read at an index: a one-lane slice at lane `k` is lane `k` of the index's row (`slice_apply`), a splat
  constant is its word (`splat_apply`), the arithmetic is pointwise, and the join of two one-lane arrays reads the first
  at output lane 0 and the second at output lane 1 (`join_apply`). So the joined result is `Mod4.result` of the input
  and the lane-0 slice is `Mod4.sign` of it, for any float instance.
-/
import proofs.«103408_j43860206027303_2_alg».proof.Proof.Gen.ReferenceIdeal
import proofs.«103408_j43860206027303_2_alg».proof.Proof.Spec
import Idealize.ShloMosaic.Lib.Pipeline.Value

noncomputable section

namespace Cert.ReferenceIdeal.RefValue

open Cert.ReferenceIdeal Cert.ReferenceIdeal.Gen Idealize.ShloMosaic Idealize.ShloMosaic.ValueIdx Cert.Mod4

variable {F : FTy → Type} [FloatOps F]

/-! ## The layout operations at an index -/

/-- A one-lane slice of the input at lane `k`, read at an index: lane `k` of that index's row. -/
theorem slice_apply (k : Nat) (hk : k < 64) (x : S512x2048x64.Idx → F .f32)
    (h : S512x2048x64.Slices ![0, 0, k] S512x2048x1) (i : S512x2048x1.Idx) :
    extractStridedSlice S512x2048x1 ![0, 0, k] x h i = x (lane i ⟨k, hk⟩) := by
  have h2 : (i 2).val < 1 := (i 2).isLt
  refine extractStridedSlice_apply ![0, 0, k] x h i (lane i ⟨k, hk⟩) fun a => ?_
  match a with
  | ⟨0, _⟩ => show (i 0).val = 0 + (i 0).val; omega
  | ⟨1, _⟩ => show (i 1).val = 0 + (i 1).val; omega
  | ⟨2, _⟩ => show k = k + (i 2).val; omega

/-- A scalar constant broadcast to every row, read at an index: the constant's word as the instance reads it. -/
theorem splat_apply (w : BitVec 32) (h : S_.BroadcastsInDim S512x2048x1 (![] : Fin 0 → Fin S512x2048x1.rank))
    (i : S512x2048x1.Idx) :
    broadcastInDim S512x2048x1 ![] h (constant (F := F) S_ .f32 w) i = FloatOps.ofBits .f32 w :=
  broadcastInDim_apply _ h (constant (F := F) S_ .f32 w) i ix0 (fun a => a.elim0)

/-- The two one-lane arrays as a family indexed by the output lane. -/
abbrev pair (u v : S512x2048x1.Idx → F .f32) : Fin 2 → (S512x2048x1.Idx → F .f32) := fun n =>
  match n with | ⟨0, _⟩ => u | ⟨1, _⟩ => v

/-- Two one-lane arrays joined along the lane axis, read at an index: output lane 0 is the first array and output lane 1
    the second, each at the one lane of the index's row. -/
theorem join_apply (u v : S512x2048x1.Idx → F .f32)
    (h : Shape.Concatenates [S512x2048x1, S512x2048x1] S512x2048x2 2) (i : S512x2048x2.Idx) :
    concatenate S512x2048x2 2 [⟨S512x2048x1, u⟩, ⟨S512x2048x1, v⟩] h i
      = if (i 2).val = 0 then u (ix3 (n0 := 512) (n1 := 2048) (n2 := 1) (i 0) (i 1) ⟨0, Nat.one_pos⟩)
        else v (ix3 (n0 := 512) (n1 := 2048) (n2 := 1) (i 0) (i 1) ⟨0, Nat.one_pos⟩) := by
  have h2 : (i 2).val < 2 := (i 2).isLt
  have e : concatenate S512x2048x2 2 [⟨S512x2048x1, u⟩, ⟨S512x2048x1, v⟩] h i
      = pair u v ⟨(i 2).val, h2⟩ (ix3 (n0 := 512) (n1 := 2048) (n2 := 1) (i 0) (i 1) ⟨0, Nat.one_pos⟩) := by
    show concatenate S512x2048x2 2 (List.ofFn fun n : Fin 2 => (⟨S512x2048x1, pair u v n⟩ : (s : Shape) × (s.Idx → _))) _ i = _
    exact concatenate_ofFn_apply (t := S512x2048x2) (s₁ := S512x2048x1) (2 : Fin 3) (pair u v) _ rfl 1 rfl i
      ⟨(i 2).val, h2⟩ (by show (i 2).val / 1 = (i 2).val; omega)
      (ix3 (n0 := 512) (n1 := 2048) (n2 := 1) (i 0) (i 1) ⟨0, Nat.one_pos⟩) (by show 0 = (i 2).val % 1; omega)
      (fun b hb => by
        match b with
        | ⟨0, _⟩ => rfl
        | ⟨1, _⟩ => rfl
        | ⟨2, _⟩ => exact absurd rfl hb)
  rw [e]
  by_cases h0 : (i 2).val = 0
  · rw [if_pos h0, show (⟨(i 2).val, h2⟩ : Fin 2) = ⟨0, by omega⟩ from Fin.ext h0]
  · rw [if_neg h0, show (⟨(i 2).val, h2⟩ : Fin 2) = ⟨1, by omega⟩ from Fin.ext (by show (i 2).val = 1; omega)]

/-! ## The two multiplexer chains over the slices -/

/-- The first joined piece at an index: the high result of the row's lanes 1, 11, 12. -/
theorem high_apply (x : S512x2048x64.Idx → F .f32)
    (h1 : S512x2048x64.Slices ![0, 0, 1] S512x2048x1) (h11 : S512x2048x64.Slices ![0, 0, 11] S512x2048x1)
    (h12 : S512x2048x64.Slices ![0, 0, 12] S512x2048x1)
    (hb : S_.BroadcastsInDim S512x2048x1 (![] : Fin 0 → Fin S512x2048x1.rank)) (j : S512x2048x1.Idx) :
    (addf (mulf (extractStridedSlice S512x2048x1 ![0, 0, 1] x h1) (addf (mulf (extractStridedSlice S512x2048x1 ![0, 0, 11] x h11) (extractStridedSlice S512x2048x1 ![0, 0, 12] x h12)) (mulf (subf (broadcastInDim S512x2048x1 ![] hb (constant S_ .f32 0x3F800000#32)) (extractStridedSlice S512x2048x1 ![0, 0, 11] x h11)) (broadcastInDim S512x2048x1 ![] hb (constant S_ .f32 0x3F800000#32))))) (mulf (subf (broadcastInDim S512x2048x1 ![] hb (constant S_ .f32 0x3F800000#32)) (extractStridedSlice S512x2048x1 ![0, 0, 1] x h1)) (broadcastInDim S512x2048x1 ![] hb (constant S_ .f32 0x00000000#32)))) j
      = bit1 (x (lane j 1)) (x (lane j 11)) (x (lane j 12)) := by
  show FloatOps.addf (FloatOps.mulf (extractStridedSlice S512x2048x1 ![0, 0, 1] x h1 j) (FloatOps.addf (FloatOps.mulf (extractStridedSlice S512x2048x1 ![0, 0, 11] x h11 j) (extractStridedSlice S512x2048x1 ![0, 0, 12] x h12 j)) (FloatOps.mulf (FloatOps.subf (broadcastInDim S512x2048x1 ![] hb (constant (F := F) S_ .f32 0x3F800000#32) j) (extractStridedSlice S512x2048x1 ![0, 0, 11] x h11 j)) (broadcastInDim S512x2048x1 ![] hb (constant (F := F) S_ .f32 0x3F800000#32) j)))) (FloatOps.mulf (FloatOps.subf (broadcastInDim S512x2048x1 ![] hb (constant (F := F) S_ .f32 0x3F800000#32) j) (extractStridedSlice S512x2048x1 ![0, 0, 1] x h1 j)) (broadcastInDim S512x2048x1 ![] hb (constant (F := F) S_ .f32 0x00000000#32) j)) = _
  rw [slice_apply 1 (by decide) x h1 j, slice_apply 11 (by decide) x h11 j, slice_apply 12 (by decide) x h12 j,
    splat_apply 0x3F800000#32 hb j, splat_apply 0x00000000#32 hb j]
  rfl

/-- The second joined piece at an index: the low result of the row's lanes 1, 11, 12, 13. -/
theorem low_apply (x : S512x2048x64.Idx → F .f32)
    (h1 : S512x2048x64.Slices ![0, 0, 1] S512x2048x1) (h11 : S512x2048x64.Slices ![0, 0, 11] S512x2048x1)
    (h12 : S512x2048x64.Slices ![0, 0, 12] S512x2048x1) (h13 : S512x2048x64.Slices ![0, 0, 13] S512x2048x1)
    (hb : S_.BroadcastsInDim S512x2048x1 (![] : Fin 0 → Fin S512x2048x1.rank)) (j : S512x2048x1.Idx) :
    (addf (mulf (extractStridedSlice S512x2048x1 ![0, 0, 1] x h1) (addf (mulf (extractStridedSlice S512x2048x1 ![0, 0, 11] x h11) (extractStridedSlice S512x2048x1 ![0, 0, 13] x h13)) (mulf (subf (broadcastInDim S512x2048x1 ![] hb (constant S_ .f32 0x3F800000#32)) (extractStridedSlice S512x2048x1 ![0, 0, 11] x h11)) (extractStridedSlice S512x2048x1 ![0, 0, 12] x h12)))) (mulf (subf (broadcastInDim S512x2048x1 ![] hb (constant S_ .f32 0x3F800000#32)) (extractStridedSlice S512x2048x1 ![0, 0, 1] x h1)) (extractStridedSlice S512x2048x1 ![0, 0, 11] x h11))) j
      = bit0 (x (lane j 1)) (x (lane j 11)) (x (lane j 12)) (x (lane j 13)) := by
  show FloatOps.addf (FloatOps.mulf (extractStridedSlice S512x2048x1 ![0, 0, 1] x h1 j) (FloatOps.addf (FloatOps.mulf (extractStridedSlice S512x2048x1 ![0, 0, 11] x h11 j) (extractStridedSlice S512x2048x1 ![0, 0, 13] x h13 j)) (FloatOps.mulf (FloatOps.subf (broadcastInDim S512x2048x1 ![] hb (constant (F := F) S_ .f32 0x3F800000#32) j) (extractStridedSlice S512x2048x1 ![0, 0, 11] x h11 j)) (extractStridedSlice S512x2048x1 ![0, 0, 12] x h12 j)))) (FloatOps.mulf (FloatOps.subf (broadcastInDim S512x2048x1 ![] hb (constant (F := F) S_ .f32 0x3F800000#32) j) (extractStridedSlice S512x2048x1 ![0, 0, 1] x h1 j)) (extractStridedSlice S512x2048x1 ![0, 0, 11] x h11 j)) = _
  rw [slice_apply 1 (by decide) x h1 j, slice_apply 11 (by decide) x h11 j, slice_apply 12 (by decide) x h12 j,
    slice_apply 13 (by decide) x h13 j, splat_apply 0x3F800000#32 hb j]
  rfl

/-! ## The two results -/

/-- The joined result the reference's run ends with is the specification's two-lane array of the input. -/
theorem result_eq (x : S512x2048x64.Idx → F .f32) :
    concatenate S512x2048x2 2 [⟨S512x2048x1, (addf (mulf (extractStridedSlice S512x2048x1 ![0, 0, 1] x slices_S512x2048x64_S512x2048x1_0_0_1) (addf (mulf (extractStridedSlice S512x2048x1 ![0, 0, 11] x slices_S512x2048x64_S512x2048x1_0_0_11) (extractStridedSlice S512x2048x1 ![0, 0, 12] x slices_S512x2048x64_S512x2048x1_0_0_12)) (mulf (subf (broadcastInDim S512x2048x1 ![] bcast_S_S512x2048x1 (constant S_ .f32 0x3F800000#32)) (extractStridedSlice S512x2048x1 ![0, 0, 11] x slices_S512x2048x64_S512x2048x1_0_0_11)) (broadcastInDim S512x2048x1 ![] bcast_S_S512x2048x1 (constant S_ .f32 0x3F800000#32))))) (mulf (subf (broadcastInDim S512x2048x1 ![] bcast_S_S512x2048x1 (constant S_ .f32 0x3F800000#32)) (extractStridedSlice S512x2048x1 ![0, 0, 1] x slices_S512x2048x64_S512x2048x1_0_0_1)) (broadcastInDim S512x2048x1 ![] bcast_S_S512x2048x1 (constant S_ .f32 0x00000000#32))))⟩, ⟨S512x2048x1, (addf (mulf (extractStridedSlice S512x2048x1 ![0, 0, 1] x slices_S512x2048x64_S512x2048x1_0_0_1) (addf (mulf (extractStridedSlice S512x2048x1 ![0, 0, 11] x slices_S512x2048x64_S512x2048x1_0_0_11) (extractStridedSlice S512x2048x1 ![0, 0, 13] x slices_S512x2048x64_S512x2048x1_0_0_13)) (mulf (subf (broadcastInDim S512x2048x1 ![] bcast_S_S512x2048x1 (constant S_ .f32 0x3F800000#32)) (extractStridedSlice S512x2048x1 ![0, 0, 11] x slices_S512x2048x64_S512x2048x1_0_0_11)) (extractStridedSlice S512x2048x1 ![0, 0, 12] x slices_S512x2048x64_S512x2048x1_0_0_12)))) (mulf (subf (broadcastInDim S512x2048x1 ![] bcast_S_S512x2048x1 (constant S_ .f32 0x3F800000#32)) (extractStridedSlice S512x2048x1 ![0, 0, 1] x slices_S512x2048x64_S512x2048x1_0_0_1)) (extractStridedSlice S512x2048x1 ![0, 0, 11] x slices_S512x2048x64_S512x2048x1_0_0_11)))⟩] concatenates_S512x2048x1_S512x2048x1_S512x2048x2_d2
      = Cert.Mod4.result (A := 512) (B := 2048) x := by
  funext i
  refine (join_apply _ _ _ i).trans ?_
  exact if_congr Iff.rfl (high_apply x _ _ _ _ _) (low_apply x _ _ _ _ _ _)

/-- The lane-0 slice the reference's run ends with is the specification's one-lane array of the input. -/
theorem sign_eq (x : S512x2048x64.Idx → F .f32) :
    extractStridedSlice S512x2048x1 ![0, 0, 0] x slices_S512x2048x64_S512x2048x1_0_0_0
      = Cert.Mod4.sign (A := 512) (B := 2048) x :=
  funext fun i => slice_apply 0 (by decide) x _ i

end Cert.ReferenceIdeal.RefValue

end
-- ==== Proof.KernelBody.lean ====
/-
  What the kernel body leaves in its two output buffers, as functions of the input block.

  At a grid point the body sees one block of 64 x 128 rows of the input. It loads five one-lane columns of it (lanes 0,
  1, 11, 12, 13), forms the two chained multiplexers on four of them, joins the two one-lane results along the lane axis
  and stores the join over the whole two-lane buffer; the lane-0 column is stored unchanged over the whole one-lane
  buffer. So the two-lane buffer ends at the specification's two-lane array OF THE BLOCK and the one-lane buffer at its
  one-lane array of the block (`body_result`, `body_sign`), for any float instance.

  The generated value module already reads the joined store at a block index: the piece the index's lane selects, at the
  one lane of the index's row. What is added here is that a load of the one-lane column at lane `k` reads lane `k` of the
  row (`ld_lane`) and that the two pieces, at a row, are the two multiplexer chains of the row's lanes.
-/
import proofs.«103408_j43860206027303_2_alg».proof.Proof.Gen.KernelIdeal.Value
import proofs.«103408_j43860206027303_2_alg».proof.Proof.Spec
import Idealize.ShloMosaic.Lib.Pipeline.Value

noncomputable section

namespace Cert.KernelIdeal.Body

open Cert.KernelIdeal Cert.KernelIdeal.Gen Cert.KernelIdeal.Value Idealize.ShloMosaic Idealize.ShloMosaic.ValueIdx Cert.Mod4

variable {F : FTy → Type} [FloatOps F]

theorem zero3 : (![0, 0, 0] : Fin 3 → Nat) = fun _ => 0 := funext fun a => by
  match a with
  | ⟨0, _⟩ => rfl
  | ⟨1, _⟩ => rfl
  | ⟨2, _⟩ => rfl

/-- A load of the block's one-lane column at lane `k`, read at a row: lane `k` of that row of the block. -/
theorem ld_lane (k : Nat) (hk : k < 64) (x0 : Vec F S64x128x64 .f32)
    (inb : ∀ a, (![0, 0, k] : Fin 3 → Nat) a + S64x128x1.size a ≤ S64x128x64.size a) (j : S64x128x1.Idx) :
    View.ld x0 (Rect.unit (s := S64x128x64) ![0, 0, k] S64x128x1.size inb) j = x0 (lane j ⟨k, hk⟩) := by
  have h2 : (j 2).val < 1 := (j 2).isLt
  show x0 ((Rect.unit (s := S64x128x64) ![0, 0, k] S64x128x1.size inb).idx j) = x0 (lane j ⟨k, hk⟩)
  refine congrArg x0 (funext fun a => Fin.ext ?_)
  match a with
  | ⟨0, _⟩ => show 0 + 1 * (j 0).val = (j 0).val; omega
  | ⟨1, _⟩ => show 0 + 1 * (j 1).val = (j 1).val; omega
  | ⟨2, _⟩ => show k + 1 * (j 2).val = k; omega

/-- The first joined piece at a row is the high multiplexer chain of the three columns' entries there. -/
theorem piece_high (P0 P1 P2 P3 : Vec F S64x128x1 .f32) (j : S64x128x1.Idx) :
    Cat1_0 P0 P1 P2 P3 ⟨0, Nat.zero_lt_two⟩ j = bit1 (P0 j) (P1 j) (P2 j) := rfl

/-- The second joined piece at a row is the low multiplexer chain of the four columns' entries there. -/
theorem piece_low (P0 P1 P2 P3 : Vec F S64x128x1 .f32) (j : S64x128x1.Idx) :
    Cat1_0 P0 P1 P2 P3 ⟨1, Nat.one_lt_two⟩ j = bit0 (P0 j) (P1 j) (P2 j) (P3 j) := rfl

/-- The two-lane buffer after the body: the specification's two-lane array of the input block. -/
theorem body_result (x0 : Vec F S64x128x64 .f32) : out0_1 x0 = Cert.Mod4.result (A := 64) (B := 128) x0 := by
  funext y
  have h2 : (y 2).val < 2 := (y 2).isLt
  unfold out0_1
  refine (canon1_eq _ _ _ _ y).trans ?_
  show Cat1_0 (View.ld x0 r0_1) (View.ld x0 r0_2) (View.ld x0 r0_3) (View.ld x0 r0_4) (csel1_0 y) (ix1_0 y)
    = (if (y 2).val = 0 then bit1 (x0 (lane y 1)) (x0 (lane y 11)) (x0 (lane y 12))
       else bit0 (x0 (lane y 1)) (x0 (lane y 11)) (x0 (lane y 12)) (x0 (lane y 13)))
  by_cases h0 : (y 2).val = 0
  · rw [if_pos h0, show csel1_0 y = ⟨0, Nat.zero_lt_two⟩ from Fin.ext h0, piece_high,
      ld_lane 1 (by decide) x0 _ (ix1_0 y), ld_lane 11 (by decide) x0 _ (ix1_0 y), ld_lane 12 (by decide) x0 _ (ix1_0 y)]
    rfl
  · rw [if_neg h0, show csel1_0 y = ⟨1, Nat.one_lt_two⟩ from Fin.ext (by show (y 2).val = 1; omega), piece_low,
      ld_lane 1 (by decide) x0 _ (ix1_0 y), ld_lane 11 (by decide) x0 _ (ix1_0 y), ld_lane 12 (by decide) x0 _ (ix1_0 y),
      ld_lane 13 (by decide) x0 _ (ix1_0 y)]
    rfl

/-- The one-lane buffer after the body: the specification's one-lane array of the input block. -/
theorem body_sign (x0 : Vec F S64x128x64 .f32) : out0_2 x0 = Cert.Mod4.sign (A := 64) (B := 128) x0 := by
  unfold out0_2
  rw [View.canon_unit_zero zero3]
  funext j
  exact ld_lane 0 (by decide) x0 _ j

end Cert.KernelIdeal.Body

end
-- ==== Proof.KernelGrid.lean ====
/-
  The grid: which rows each point's blocks hold, and that the output blocks cover the output arrays.

  The grid has 8 x 16 points. At point `(g0, g1)` all three windows sit at block index `(g0, g1, 0)`: the input block is
  rows `64 g0 … 64 g0 + 63` x `128 g1 … 128 g1 + 127` of the input with all 64 lanes, and the two output blocks are the
  same rows of the two outputs with all their lanes (2 and 1). These relations between the three printed index maps are
  decided once over the 128 points (`idx_facts`), and every pair `(g0, g1)` is some point's (`idx_onto`). An index of an
  output array lies in a point's block iff each coordinate is in the block's range on its axis (`mem_result`,
  `mem_sign`), so the point holding block row `i0 / 64`, `i1 / 128` covers index `(i0, i1, l)` (`cover_result`,
  `cover_sign`): the output blocks tile the output arrays.
-/
import proofs.«103408_j43860206027303_2_alg».proof.Proof.Gen.KernelIdeal.Frame
import Idealize.ShloMosaic.Lib.Pipeline.Value

noncomputable section

namespace Cert.KernelIdeal.Grid

open Cert.KernelIdeal Cert.KernelIdeal.Gen Idealize.ShloMosaic Idealize.ShloMosaic.TcCoe Idealize.SL.Sem

/-- The three printed index maps at a point: the input's block index is `(g0, g1, 0)` with `g0 ≤ 7`, `g1 ≤ 15`, and both
    outputs' block indices agree with it on the two row axes and are 0 on the lane axis. -/
theorem idx_facts : ∀ t : Fin cfg0.N,
    win0_0.index t (0 : Fin 3) ≤ 7 ∧ win0_0.index t (1 : Fin 3) ≤ 15 ∧ win0_0.index t (2 : Fin 3) = 0
    ∧ win0_1.index t (0 : Fin 3) = win0_0.index t (0 : Fin 3) ∧ win0_1.index t (1 : Fin 3) = win0_0.index t (1 : Fin 3)
    ∧ win0_1.index t (2 : Fin 3) = 0
    ∧ win0_2.index t (0 : Fin 3) = win0_0.index t (0 : Fin 3) ∧ win0_2.index t (1 : Fin 3) = win0_0.index t (1 : Fin 3)
    ∧ win0_2.index t (2 : Fin 3) = 0 :=
  (by decide +kernel : ∀ t : Fin grid0.N, _)

/-- Every block of rows is some point's. -/
theorem idx_onto : ∀ (q0 : Fin 8) (q1 : Fin 16), ∃ t : Fin cfg0.N,
    win0_0.index t (0 : Fin 3) = q0.val ∧ win0_0.index t (1 : Fin 3) = q1.val :=
  (by decide +kernel : ∀ (q0 : Fin 8) (q1 : Fin 16), ∃ t : Fin grid0.N,
    win0_0.index t (0 : Fin 3) = q0.val ∧ win0_0.index t (1 : Fin 3) = q1.val)

/-- An index of the two-lane output is in point `t`'s block iff each coordinate is in the block's range on its axis. -/
theorem mem_result (t : Fin cfg0.N) (i : S512x2048x2.Idx) :
    i ∈ ((cfg0.win 1).blk t).view.set ↔ ∀ a : Fin 3, win0_1.index t a * S64x128x2.size a ≤ (i a).val
      ∧ (i a).val < win0_1.index t a * S64x128x2.size a + S64x128x2.size a := by
  show i ∈ ((View.whole main_v0_0).slice (win0_1.rect t)).set ↔ _
  rw [View.set_slice_whole, Rect.mem_set_unit]
  exact Iff.rfl

/-- An index of the one-lane output is in point `t`'s block iff each coordinate is in the block's range on its axis. -/
theorem mem_sign (t : Fin cfg0.N) (i : S512x2048x1.Idx) :
    i ∈ ((cfg0.win 2).blk t).view.set ↔ ∀ a : Fin 3, win0_2.index t a * S64x128x1.size a ≤ (i a).val
      ∧ (i a).val < win0_2.index t a * S64x128x1.size a + S64x128x1.size a := by
  show i ∈ ((View.whole main_v0_1).slice (win0_2.rect t)).set ↔ _
  rw [View.set_slice_whole, Rect.mem_set_unit]
  exact Iff.rfl

/-- The two-lane output's blocks cover it: index `(i0, i1, l)` is in the block of the point at `(i0 / 64, i1 / 128)`. -/
theorem cover_result (i : S512x2048x2.Idx) :
    ∃ t : Fin cfg0.N, (cfg0.win 1).flush t = true ∧ i ∈ ((cfg0.win 1).blk t).view.set := by
  have hi0 : (i 0).val < 512 := (i 0).isLt
  have hi1 : (i 1).val < 2048 := (i 1).isLt
  have hi2 : (i 2).val < 2 := (i 2).isLt
  obtain ⟨t, q0, q1⟩ := idx_onto ⟨(i 0).val / 64, by omega⟩ ⟨(i 1).val / 128, by omega⟩
  obtain ⟨-, -, -, b0, b1, b2, -⟩ := idx_facts t
  have q0' : win0_0.index t (0 : Fin 3) = (i 0).val / 64 := q0
  have q1' : win0_0.index t (1 : Fin 3) = (i 1).val / 128 := q1
  refine ⟨t, flush0_1 t, ?_⟩
  rw [mem_result]
  intro a
  match a with
  | ⟨0, _⟩ =>
    show win0_1.index t (0 : Fin 3) * 64 ≤ (i 0).val ∧ (i 0).val < win0_1.index t (0 : Fin 3) * 64 + 64
    rw [b0, q0']; omega
  | ⟨1, _⟩ =>
    show win0_1.index t (1 : Fin 3) * 128 ≤ (i 1).val ∧ (i 1).val < win0_1.index t (1 : Fin 3) * 128 + 128
    rw [b1, q1']; omega
  | ⟨2, _⟩ =>
    show win0_1.index t (2 : Fin 3) * 2 ≤ (i 2).val ∧ (i 2).val < win0_1.index t (2 : Fin 3) * 2 + 2
    rw [b2]; omega

/-- The one-lane output's blocks cover it, in the same way. -/
theorem cover_sign (i : S512x2048x1.Idx) :
    ∃ t : Fin cfg0.N, (cfg0.win 2).flush t = true ∧ i ∈ ((cfg0.win 2).blk t).view.set := by
  have hi0 : (i 0).val < 512 := (i 0).isLt
  have hi1 : (i 1).val < 2048 := (i 1).isLt
  have hi2 : (i 2).val < 1 := (i 2).isLt
  obtain ⟨t, q0, q1⟩ := idx_onto ⟨(i 0).val / 64, by omega⟩ ⟨(i 1).val / 128, by omega⟩
  obtain ⟨-, -, -, -, -, -, c0, c1, c2⟩ := idx_facts t
  have q0' : win0_0.index t (0 : Fin 3) = (i 0).val / 64 := q0
  have q1' : win0_0.index t (1 : Fin 3) = (i 1).val / 128 := q1
  refine ⟨t, flush0_2 t, ?_⟩
  rw [mem_sign]
  intro a
  match a with
  | ⟨0, _⟩ =>
    show win0_2.index t (0 : Fin 3) * 64 ≤ (i 0).val ∧ (i 0).val < win0_2.index t (0 : Fin 3) * 64 + 64
    rw [c0, q0']; omega
  | ⟨1, _⟩ =>
    show win0_2.index t (1 : Fin 3) * 128 ≤ (i 1).val ∧ (i 1).val < win0_2.index t (1 : Fin 3) * 128 + 128
    rw [c1, q1']; omega
  | ⟨2, _⟩ =>
    show win0_2.index t (2 : Fin 3) * 1 ≤ (i 2).val ∧ (i 2).val < win0_2.index t (2 : Fin 3) * 1 + 1
    rw [c2]; omega

end Cert.KernelIdeal.Grid

end
-- ==== Proof.KernelValue.lean ====
/-
  The kernel's two output arrays after the run are the specification's two arrays of the input.

  Point `t` of the grid holds a block of rows of the input (`iblk_apply`: row `(p, q)` of the block is row
  `(64 g0 + p, 128 g1 + q)` of the input, lane for lane). The body leaves in each output buffer the specification's array
  OF THAT BLOCK, and an output element depends on lanes of its own row only, so what the point writes back is the same
  block of rows of the specification's array of the WHOLE input (`flushed_result`, `flushed_sign`, through
  `result_block`, `sign_block`, stated over a block and an array as variables). The output blocks tile the output arrays,
  so after the run each output array is the specification's array of the input (`final_result`, `final_sign`), and the
  run's post names them (`run`). Nothing here depends on the float instance.
-/
import proofs.«103408_j43860206027303_2_alg».proof.Proof.KernelBody
import proofs.«103408_j43860206027303_2_alg».proof.Proof.KernelGrid

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## A block of rows, over variables -/

/-- If the block `x0` is rows `64 i0 + p`, `128 i1 + q` of the array `X`, what the body leaves in the two-lane buffer
    at a block index is the specification's two-lane array of `X` at the array index over it. -/
theorem result_block (X : S512x2048x64.Idx → F .f32) (x0 : Vec F S64x128x64 .f32) (i0 i1 : Nat) (h0 : i0 ≤ 7) (h1 : i1 ≤ 15)
    (hx : ∀ (p : Fin 64) (q : Fin 128) (k : Fin 64) (P : Fin 512) (Q : Fin 2048),
      P.val = i0 * 64 + p.val → Q.val = i1 * 128 + q.val → x0 (ix3 p q k) = X (ix3 P Q k))
    (y : S64x128x2.Idx) (Y : S512x2048x2.Idx) (hY0 : (Y 0).val = i0 * 64 + (y 0).val)
    (hY1 : (Y 1).val = i1 * 128 + (y 1).val) (hY2 : (Y 2).val = (y 2).val) :
    out0_1 x0 y = Cert.Mod4.result (A := 512) (B := 2048) X Y := by
  have hy0 : (y 0).val < 64 := (y 0).isLt
  have hy1 : (y 1).val < 128 := (y 1).isLt
  rw [Body.body_result]
  have e := Cert.Mod4.result_rows (A := 512) (B := 2048) (A' := 64) (B' := 128) X x0
    (fun p => ⟨i0 * 64 + p.val, by have hp : p.val < 64 := p.isLt; show i0 * 64 + p.val < 512; omega⟩) (fun q => ⟨i1 * 128 + q.val, by have hq : q.val < 128 := q.isLt; show i1 * 128 + q.val < 2048; omega⟩)
    (fun p q k => hx p q k _ _ rfl rfl) (y 0) (y 1) (y 2)
  have eY : Y = ix3 (n0 := 512) (n1 := 2048) (n2 := 2) ⟨i0 * 64 + (y 0).val, by show i0 * 64 + (y 0).val < 512; omega⟩
      ⟨i1 * 128 + (y 1).val, by show i1 * 128 + (y 1).val < 2048; omega⟩ (y 2) :=
    funext fun a => Fin.ext (by
      match a with
      | ⟨0, _⟩ => exact hY0
      | ⟨1, _⟩ => exact hY1
      | ⟨2, _⟩ => exact hY2)
  rw [eY]
  exact (congrArg (Cert.Mod4.result (A := 64) (B := 128) x0) (eq_ix3 y)).trans e

/-- The same for the one-lane buffer. -/
theorem sign_block (X : S512x2048x64.Idx → F .f32) (x0 : Vec F S64x128x64 .f32) (i0 i1 : Nat) (h0 : i0 ≤ 7) (h1 : i1 ≤ 15)
    (hx : ∀ (p : Fin 64) (q : Fin 128) (k : Fin 64) (P : Fin 512) (Q : Fin 2048),
      P.val = i0 * 64 + p.val → Q.val = i1 * 128 + q.val → x0 (ix3 p q k) = X (ix3 P Q k))
    (y : S64x128x1.Idx) (Y : S512x2048x1.Idx) (hY0 : (Y 0).val = i0 * 64 + (y 0).val)
    (hY1 : (Y 1).val = i1 * 128 + (y 1).val) (hY2 : (Y 2).val = (y 2).val) :
    out0_2 x0 y = Cert.Mod4.sign (A := 512) (B := 2048) X Y := by
  have hy0 : (y 0).val < 64 := (y 0).isLt
  have hy1 : (y 1).val < 128 := (y 1).isLt
  rw [Body.body_sign]
  have e := Cert.Mod4.sign_rows (A := 512) (B := 2048) (A' := 64) (B' := 128) X x0
    (fun p => ⟨i0 * 64 + p.val, by have hp : p.val < 64 := p.isLt; show i0 * 64 + p.val < 512; omega⟩) (fun q => ⟨i1 * 128 + q.val, by have hq : q.val < 128 := q.isLt; show i1 * 128 + q.val < 2048; omega⟩)
    (fun p q k => hx p q k _ _ rfl rfl) (y 0) (y 1) (y 2)
  have eY : Y = ix3 (n0 := 512) (n1 := 2048) (n2 := 1) ⟨i0 * 64 + (y 0).val, by show i0 * 64 + (y 0).val < 512; omega⟩
      ⟨i1 * 128 + (y 1).val, by show i1 * 128 + (y 1).val < 2048; omega⟩ (y 2) :=
    funext fun a => Fin.ext (by
      match a with
      | ⟨0, _⟩ => exact hY0
      | ⟨1, _⟩ => exact hY1
      | ⟨2, _⟩ => exact hY2)
  rw [eY]
  exact (congrArg (Cert.Mod4.sign (A := 64) (B := 128) x0) (eq_ix3 y)).trans e

/-! ## The point's blocks -/

variable (m : (ℓ : Loc nD τ sig) → Buf (Elt F) ℓ) (ρ : Dev nD → PrngReg)

/-- The input block at point `t`, at a block index, is the input at rows `64 g0 + p`, `128 g1 + q`, same lane. -/
theorem iblk_apply (c : Dev nD) (t : Fin cfg0.N) (p : Fin 64) (q : Fin 128) (k : Fin 64) (P : Fin 512) (Q : Fin 2048)
    (hP : P.val = win0_0.index t (0 : Fin 3) * 64 + p.val) (hQ : Q.val = win0_0.index t (1 : Fin 3) * 128 + q.val) :
    (iblk m c 0 t : Vec F S64x128x64 .f32) (ix3 p q k) = (V m c main_arg0 : S512x2048x64.Idx → F .f32) (ix3 P Q k) := by
  obtain ⟨-, -, a2, -⟩ := Grid.idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 64 + 1 * p.val = P.val; rw [hP]; omega
  | ⟨1, _⟩ => show win0_0.index t (1 : Fin 3) * 128 + 1 * q.val = Q.val; rw [hQ]; omega
  | ⟨2, _⟩ => show win0_0.index t (2 : Fin 3) * 64 + 1 * k.val = k.val; rw [a2]; omega

/-- What point `t` writes back to the two-lane output is its block of the specification's two-lane array of the input. -/
theorem flushed_result (c : Dev nD) (t : Fin cfg0.N) :
    (dats m 0 c).flushed 1 t
      = ((cfg0.win 1).blk t).view.read (Elt F) (Cert.Mod4.result (A := 512) (B := 2048) (V m c main_arg0)) := by
  obtain ⟨a0, a1, -, b0, b1, b2, -⟩ := Grid.idx_facts t
  rw [Value.flushed1]
  funext y
  show out0_1 (iblk m c 0 t) y
    = Cert.Mod4.result (A := 512) (B := 2048) (V m c main_arg0) (((cfg0.win 1).blk t).view.emb y)
  refine result_block (V m c main_arg0) (iblk m c 0 t) (win0_0.index t (0 : Fin 3)) (win0_0.index t (1 : Fin 3)) a0 a1
    (fun p q k P Q hP hQ => iblk_apply m c t p q k P Q hP hQ) y _ ?_ ?_ ?_
  · show win0_1.index t (0 : Fin 3) * 64 + 1 * (y 0).val = win0_0.index t (0 : Fin 3) * 64 + (y 0).val
    rw [b0]; omega
  · show win0_1.index t (1 : Fin 3) * 128 + 1 * (y 1).val = win0_0.index t (1 : Fin 3) * 128 + (y 1).val
    rw [b1]; omega
  · show win0_1.index t (2 : Fin 3) * 2 + 1 * (y 2).val = (y 2).val
    rw [b2]; omega

/-- What point `t` writes back to the one-lane output is its block of the specification's one-lane array of the input. -/
theorem flushed_sign (c : Dev nD) (t : Fin cfg0.N) :
    (dats m 0 c).flushed 2 t
      = ((cfg0.win 2).blk t).view.read (Elt F) (Cert.Mod4.sign (A := 512) (B := 2048) (V m c main_arg0)) := by
  obtain ⟨a0, a1, -, -, -, -, c0, c1, c2⟩ := Grid.idx_facts t
  rw [Value.flushed2]
  funext y
  show out0_2 (iblk m c 0 t) y
    = Cert.Mod4.sign (A := 512) (B := 2048) (V m c main_arg0) (((cfg0.win 2).blk t).view.emb y)
  refine sign_block (V m c main_arg0) (iblk m c 0 t) (win0_0.index t (0 : Fin 3)) (win0_0.index t (1 : Fin 3)) a0 a1
    (fun p q k P Q hP hQ => iblk_apply m c t p q k P Q hP hQ) y _ ?_ ?_ ?_
  · show win0_2.index t (0 : Fin 3) * 64 + 1 * (y 0).val = win0_0.index t (0 : Fin 3) * 64 + (y 0).val
    rw [c0]; omega
  · show win0_2.index t (1 : Fin 3) * 128 + 1 * (y 1).val = win0_0.index t (1 : Fin 3) * 128 + (y 1).val
    rw [c1]; omega
  · show win0_2.index t (2 : Fin 3) * 1 + 1 * (y 2).val = (y 2).val
    rw [c2]; omega

/-! ## The arrays after the run -/

/-- The two-lane output array after the run is the specification's two-lane array of the input. -/
theorem final_result (c : Dev nD) :
    (dats m 0 c).arrAt 1 cfg0.N = Cert.Mod4.result (A := 512) (B := 2048) (m ((c : Thread nD τ).loc main_arg0)) :=
  (dats m 0 c).arrAt_eq_of_cover 1 (Cert.Mod4.result (A := 512) (B := 2048) (V m c main_arg0))
    (fun t _ => flushed_result m c t) Grid.cover_result

/-- The one-lane output array after the run is the specification's one-lane array of the input. -/
theorem final_sign (c : Dev nD) :
    (dats m 0 c).arrAt 2 cfg0.N = Cert.Mod4.sign (A := 512) (B := 2048) (m ((c : Thread nD τ).loc main_arg0)) :=
  (dats m 0 c).arrAt_eq_of_cover 2 (Cert.Mod4.sign (A := 512) (B := 2048) (V m c main_arg0))
    (fun t _ => flushed_sign m c t) Grid.cover_sign

/-- The kernel's run, read: every weakly fair execution terminates with the two output arrays at the specification's two
    arrays of the input and the input unchanged. -/
theorem run : θ_run defs (onTc (τ := τ) (main (F := F))) ⟨m, fun _ => 0, ρ⟩ fun r => ∀ c : Dev nD,
      r.2.mem ((c : Thread nD τ).loc main_v0_0) = Cert.Mod4.result (A := 512) (B := 2048) (m ((c : Thread nD τ).loc main_arg0))
      ∧ r.2.mem ((c : Thread nD τ).loc main_v0_1) = Cert.Mod4.sign (A := 512) (B := 2048) (m ((c : Thread nD τ).loc main_arg0))
      ∧ r.2.mem ((c : Thread nD τ).loc main_arg0) = m ((c : Thread nD τ).loc main_arg0) :=
  (θ_run defs _ _).mono (fun r h c => ⟨(h c).1.trans (final_result m c), (h c).2.1.trans (final_sign m c), (h c).2.2⟩)
    (Value.run_blocks m ρ)

end Cert.KernelIdeal.Hand

end
-- ==== Proof.lean ====
/-
  The proof of `Cert.Claim`: a kernel that extracts two "bits" per row by chained linear multiplexers, against its jnp
  reference.

  The input is an array of 512 x 2048 rows of 64 lanes. Both programs read five lanes of every row — lane 0 (a sign),
  lane 1 (`e10`), lane 11 (`e0`), lanes 12 and 13 (`m51`, `m50`) — and with `mux s a b = s * a + (1 - s) * b` return

      result[row] = [ mux e10 (mux e0 m51 1) 0 ,  mux e10 (mux e0 m50 m51) e0 ]        sign[row] = [ lane 0 ]

  (Proof/Spec.lean). The kernel does this block by block over an 8 x 16 grid of blocks of 64 x 128 rows, loading one-lane
  columns of the block and storing the joined two-lane block and the copied one-lane block; the reference does it on
  whole-array slices. The two programs apply the same operations in the same order to the same lanes with the same two
  constants, so they agree as terms of the float instance's operations: no law of arithmetic is used, the precondition
  (finite inputs) is never opened, and the equality holds for infinite entries too.

  * The three frames: the two kernel programs' frames are generated whole; the reference's frame is its run with the
    results dropped.
  * `preserves`: the idealization pass rewrote nothing, so the conjunct is `True`.
  * `algebraic`: the kernel's run ends with both output arrays at the specification's arrays of the input
    (Proof/KernelValue.lean, over Proof/KernelBody.lean and Proof/KernelGrid.lean: the body's buffers are the
    specification of the block; an output element depends on its own row only, so a block of the specification is the
    specification of the block; the output blocks tile the outputs), and the reference's run ends with its joined result
    and its lane-0 slice, which read index by index are the same two arrays (Proof/RefValue.lean); the two inputs agree.
-/
import proofs.«103408_j43860206027303_2_alg».proof.Defs
import proofs.«103408_j43860206027303_2_alg».proof.Proof.Gen.Kernel
import proofs.«103408_j43860206027303_2_alg».proof.Proof.Gen.Kernel.Frame
import proofs.«103408_j43860206027303_2_alg».proof.Proof.Gen.KernelIdeal
import proofs.«103408_j43860206027303_2_alg».proof.Proof.Gen.KernelIdeal.Frame
import proofs.«103408_j43860206027303_2_alg».proof.Proof.Gen.ReferenceIdeal
import proofs.«103408_j43860206027303_2_alg».proof.Proof.Gen.Pre_finite_inputs
import proofs.«103408_j43860206027303_2_alg».proof.Proof.RefRun
import proofs.«103408_j43860206027303_2_alg».proof.Proof.RefValue
import proofs.«103408_j43860206027303_2_alg».proof.Proof.KernelValue

noncomputable section

namespace Cert.Proof

open Idealize.ShloMosaic Idealize.SL.Sem

/-- The kernel as printed runs and leaves its input unchanged. -/
theorem frame_kernel : Cert.frame_Kernel := fun m ρ _ => Cert.Kernel.Gen.frame m ρ

/-- The idealized kernel runs and leaves its input unchanged. -/
theorem frame_ideal : Cert.frame_KernelIdeal := fun m ρ _ => Cert.KernelIdeal.Gen.frame m ρ

/-- The idealized reference runs and leaves its input unchanged: its run, the two results dropped. -/
theorem frame_ref : Cert.frame_ReferenceIdeal := fun m ρ _ =>
  (θ_run Cert.ReferenceIdeal.defs _ _).mono (fun _ h c => (h c).2.2) (Cert.ReferenceIdeal.ValueP.run (F := Ideal) m ρ)

/-- The idealization pass rewrote no operation of the kernel. -/
theorem preserves : Cert.preserves_Kernel_KernelIdeal := trivial

/-- Run from memories that agree on the input, the idealized kernel and the idealized reference both end with the
    specification's two arrays of that input in their two results. -/
theorem algebraic : Cert.algebraic_KernelIdeal_ReferenceIdeal := by
  intro m ρ m' ρ' _ hagree
  refine ⟨_, _, Cert.KernelIdeal.Hand.run (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [hagree c]
    exact Cert.ReferenceIdeal.RefValue.result_eq (F := Ideal) _
  · rw [hagree c]
    exact Cert.ReferenceIdeal.RefValue.sign_eq (F := Ideal) _

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
